-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v65)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v65) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v89) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x1600000 : Shape := ⟨2, ![2, 1600000]⟩
abbrev S1600000 : Shape := ⟨1, ![1600000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128x128 .f32) (main_arg6 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : FVec F S50000x128 .f32) (main_arg1 : IVec S2x1600000 32) (main_arg2 : FVec F S1600000 .f32) (main_arg3 : FVec F S128x128 .f32) (main_arg4 : FVec F S128 .f32) (main_arg5 : FVec F S128x128 .f32) (main_arg6 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S1600000 .f32 := Host.absf main_arg2
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_v13 main_v16
-- ==== Kernel.lean ====
abbrev S50000x128 : Shape := ⟨2, ![50000, 128]⟩
abbrev S2x1600000 : Shape := ⟨2, ![2, 1600000]⟩
abbrev S1600000 : Shape := ⟨1, ![1600000]⟩
abbrev S128x128 : Shape := ⟨2, ![128, 128]⟩
abbrev S128 : Shape := ⟨1, ![128]⟩
abbrev S1x1600000 : Shape := ⟨2, ![1, 1600000]⟩
abbrev S50000 : Shape := ⟨1, ![50000]⟩
abbrev S1650000 : Shape := ⟨1, ![1650000]⟩
abbrev S_ : Shape := ⟨0, ![]⟩
abbrev S1650000x1 : Shape := ⟨2, ![1650000, 1]⟩
abbrev S5000x128 : Shape := ⟨2, ![5000, 128]⟩
abbrev S1650000x128 : Shape := ⟨2, ![1650000, 128]⟩
abbrev S1x128 : Shape := ⟨2, ![1, 128]⟩

abbrev nBuf : Space → Nat
  | .hbm => 89
  | .vmem => 11
  | .smem => 0
  | _ => 0

abbrev bufTy : (tb : Table) → Fin (tcTables nBuf tb) → BufTy
  | .hbm, ⟨0, _⟩ => ⟨S50000x128, .f32⟩
  | .hbm, ⟨1, _⟩ => ⟨S2x1600000, .i32⟩
  | .hbm, ⟨2, _⟩ => ⟨S1600000, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S1x1600000, .i32⟩
  | .hbm, ⟨8, _⟩ => ⟨S1600000, .i32⟩
  | .hbm, ⟨9, _⟩ => ⟨S1x1600000, .i32⟩
  | .hbm, ⟨10, _⟩ => ⟨S1600000, .i32⟩
  | .hbm, ⟨11, _⟩ => ⟨S50000, .i32⟩
  | .hbm, ⟨12, _⟩ => ⟨S1650000, .i32⟩
  | .hbm, ⟨13, _⟩ => ⟨S1650000, .i32⟩
  | .hbm, ⟨14, _⟩ => ⟨S_, .f32⟩
  | .hbm, ⟨15, _⟩ => ⟨S50000, .f32⟩
  | .hbm, ⟨16, _⟩ => ⟨S1650000, .f32⟩
  | .hbm, ⟨17, _⟩ => ⟨S_, .f32⟩
  | .hbm, ⟨18, _⟩ => ⟨S50000, .f32⟩
  | .hbm, ⟨19, _⟩ => ⟨S1650000x1, .i32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .i1⟩
  | .hbm, ⟨24, _⟩ => ⟨S50000, .f32⟩
  | .hbm, ⟨25, _⟩ => ⟨S_, .f32⟩
  | .hbm, ⟨26, _⟩ => ⟨S_, .f32⟩
  | .hbm, ⟨27, _⟩ => ⟨S50000, .f32⟩
  | .hbm, ⟨28, _⟩ => ⟨S50000, .f32⟩
  | .hbm, ⟨29, _⟩ => ⟨S_, .i32⟩
  | .hbm, ⟨30, _⟩ => ⟨S1650000, .i32⟩
  | .hbm, ⟨31, _⟩ => ⟨S1650000, .i1⟩
  | .hbm, ⟨32, _⟩ => ⟨S_, .i32⟩
  | .hbm, ⟨33, _⟩ => ⟨S1650000, .i32⟩
  | .hbm, ⟨34, _⟩ => ⟨S1650000, .i32⟩
  | .hbm, ⟨35, _⟩ => ⟨S1650000, .i32⟩
  | .hbm, ⟨36, _⟩ => ⟨S1650000x1, .i32⟩
  | .hbm, ⟨37, _⟩ => ⟨S1650000, .f32⟩
  | .hbm, ⟨38, _⟩ => ⟨S1650000, .f32⟩
  | .hbm, ⟨39, _⟩ => ⟨S_, .i32⟩
  | .hbm, ⟨40, _⟩ => ⟨S1650000, .i32⟩
  | .hbm, ⟨41, _⟩ => ⟨S1650000, .i1⟩
  | .hbm, ⟨42, _⟩ => ⟨S_, .i32⟩
  | .hbm, ⟨43, _⟩ => ⟨S1650000, .i32⟩
  | .hbm, ⟨44, _⟩ => ⟨S1650000, .i32⟩
  | .hbm, ⟨45, _⟩ => ⟨S1650000, .i32⟩
  | .hbm, ⟨46, _⟩ => ⟨S1650000x1, .i32⟩
  | .hbm, ⟨47, _⟩ => ⟨S1650000, .f32⟩
  | .hbm, ⟨48, _⟩ => ⟨S1650000, .f32⟩
  | .hbm, ⟨49, _⟩ => ⟨S50000x128, .bf16⟩
  | .hbm, ⟨50, _⟩ => ⟨S_, .i32⟩
  | .hbm, ⟨51, _⟩ => ⟨S1650000, .i32⟩
  | .hbm, ⟨52, _⟩ => ⟨S1650000, .i1⟩
  | .hbm, ⟨53, _⟩ => ⟨S_, .i32⟩
  | .hbm, ⟨54, _⟩ => ⟨S1650000, .i32⟩
  | .hbm, ⟨55, _⟩ => ⟨S1650000, .i32⟩
  | .hbm, ⟨56, _⟩ => ⟨S1650000, .i32⟩
  | .hbm, ⟨57, _⟩ => ⟨S1650000x1, .i32⟩
  | .hbm, ⟨58, _⟩ => ⟨S1650000x128, .bf16⟩
  | .hbm, ⟨59, _⟩ => ⟨S1650000x128, .f32⟩
  | .hbm, ⟨60, _⟩ => ⟨S1650000x1, .f32⟩
  | .hbm, ⟨61, _⟩ => ⟨S1650000x128, .f32⟩
  | .hbm, ⟨62, _⟩ => ⟨S1650000x128, .f32⟩
  | .hbm, ⟨63, _⟩ => ⟨S_, .f32⟩
  | .hbm, ⟨64, _⟩ => ⟨S50000x128, .f32⟩
  | .hbm, ⟨65, _⟩ => ⟨S1650000x1, .i32⟩
  | .hbm, ⟨66, _⟩ => ⟨S50000x128, .f32⟩
  | .hbm, ⟨67, _⟩ => ⟨S1x128, .f32⟩
  | .hbm, ⟨68, _⟩ => ⟨S50000x128, .bf16⟩
  | .hbm, ⟨69, _⟩ => ⟨S_, .i32⟩
  | .hbm, ⟨70, _⟩ => ⟨S1650000, .i32⟩
  | .hbm, ⟨71, _⟩ => ⟨S1650000, .i1⟩
  | .hbm, ⟨72, _⟩ => ⟨S_, .i32⟩
  | .hbm, ⟨73, _⟩ => ⟨S1650000, .i32⟩
  | .hbm, ⟨74, _⟩ => ⟨S1650000, .i32⟩
  | .hbm, ⟨75, _⟩ => ⟨S1650000, .i32⟩
  | .hbm, ⟨76, _⟩ => ⟨S1650000x1, .i32⟩
  | .hbm, ⟨77, _⟩ => ⟨S1650000x128, .bf16⟩
  | .hbm, ⟨78, _⟩ => ⟨S1650000x128, .f32⟩
  | .hbm, ⟨79, _⟩ => ⟨S1650000x1, .f32⟩
  | .hbm, ⟨80, _⟩ => ⟨S1650000x128, .f32⟩
  | .hbm, ⟨81, _⟩ => ⟨S1650000x128, .f32⟩
  | .hbm, ⟨82, _⟩ => ⟨S_, .f32⟩
  | .hbm, ⟨83, _⟩ => ⟨S50000x128, .f32⟩
  | .hbm, ⟨84, _⟩ => ⟨S1650000x1, .i32⟩
  | .hbm, ⟨85, _⟩ => ⟨S50000x128, .f32⟩
  | .hbm, ⟨86, _⟩ => ⟨S1x128, .f32⟩
  | .hbm, ⟨87, _⟩ => ⟨S50000x128, .f32⟩
  | .hbm, ⟨88, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .bf16⟩
  | .local _ .vmem, ⟨4, _⟩ => ⟨S5000x128, .bf16⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S128x128, .f32⟩
  | .local _ .vmem, ⟨9, _⟩ => ⟨S5000x128, .bf16⟩
  | .local _ .vmem, ⟨10, _⟩ => ⟨S5000x128, .bf16⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v15 : Ref sig .tc := ⟨.hbm, 28, rfl⟩
abbrev main_c : Ref sig .tc := ⟨.hbm, 29, rfl⟩
abbrev main_v16 : Ref sig .tc := ⟨.hbm, 30, rfl⟩
abbrev main_v17 : Ref sig .tc := ⟨.hbm, 31, rfl⟩
abbrev main_c_3 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_4 : Ref sig .tc := ⟨.hbm, 39, rfl⟩
abbrev main_v24 : Ref sig .tc := ⟨.hbm, 40, rfl⟩
abbrev main_v25 : Ref sig .tc := ⟨.hbm, 41, rfl⟩
abbrev main_c_5 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_6 : Ref sig .tc := ⟨.hbm, 50, rfl⟩
abbrev main_v33 : Ref sig .tc := ⟨.hbm, 51, rfl⟩
abbrev main_v34 : Ref sig .tc := ⟨.hbm, 52, rfl⟩
abbrev main_c_7 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_8 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_c_9 : Ref sig .tc := ⟨.hbm, 69, rfl⟩
abbrev main_v49 : Ref sig .tc := ⟨.hbm, 70, rfl⟩
abbrev main_v50 : Ref sig .tc := ⟨.hbm, 71, rfl⟩
abbrev main_c_10 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_cst_11 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S50000_S1650000_d0 : Shape.Concatenates [S1600000, S50000] S1650000 0
  bcast_S_S50000 : S_.BroadcastsInDim S50000 (![] : Fin 0 → Fin S50000.rank)
  bcast_S1650000_S1650000x1_0 : S1650000.BroadcastsInDim S1650000x1 (![0] : Fin 1 → Fin S1650000x1.rank)
  bcast_S_S1650000 : S_.BroadcastsInDim S1650000 (![] : Fin 0 → Fin S1650000.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  packedbf16_S5000x128_S5000x128_0_0 : (Rect.unit (s := S5000x128) ![0, 0] S5000x128.size inb_S5000x128_S5000x128_0_0).PackedRows (EltTy.packing .bf16)
  bcast_S1650000x1_S1650000x128_0_1 : S1650000x1.BroadcastsInDim S1650000x128 (![0, 1] : Fin 2 → Fin S1650000x128.rank)
  bcast_S_S50000x128 : S_.BroadcastsInDim S50000x128 (![] : Fin 0 → Fin S50000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  scatter_S50000_S1650000x1_S1650000_n_0_0_1_wf : ScatterDims.WF S50000 S1650000x1 S1650000 [] [0] [0] 1
  gather_S50000_S1650000x1_S1650000_n_0_n_n_0_1_1_wf : GatherDims.WF S50000 S1650000x1 S1650000 [] [0] [] [0] [] 1 ![1]
  dot_S5000x128_S128x128_S5000x128_1_0_0_1_n_n_wf : DotDims.WF S5000x128 S128x128 S5000x128 [1] [0] [0] [1] [] []
  gather_S50000x128_S1650000x1_S1650000x128_1_0_n_n_0_1_1128_wf : GatherDims.WF S50000x128 S1650000x1 S1650000x128 [1] [0] [] [0] [] 1 ![1, 128]
  scatter_S50000x128_S1650000x1_S1650000x128_1_0_0_1_wf : ScatterDims.WF S50000x128 S1650000x1 S1650000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .bf16 = 32 ∨ (Rect.block (s := S50000x128) S5000x128.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S50000x128.size a
  hwx1_3 : ∀ i : grid1.Coords, EltTy.bits .bf16 = 32 ∨ (Rect.block (s := S50000x128) S5000x128.size (cc1_transform_3 i) (hinb1_3 i)).WholeWords (EltTy.packing .bf16)

variable [Facts₀]

def scatter_S50000_S1650000x1_S1650000_n_0_0_1 : ScatterDims S50000 S1650000x1 S1650000 where
  updateWindowDims := []
  insertedWindowDims := [0]
  scatterDimsToOperandDims := [0]
  indexVectorDim := 1
  wf := scatter_S50000_S1650000x1_S1650000_n_0_0_1_wf
def gather_S50000_S1650000x1_S1650000_n_0_n_n_0_1_1 : GatherDims S50000 S1650000x1 S1650000 where
  offsetDims := []
  collapsedSliceDims := [0]
  operandBatchingDims := []
  startIndicesBatchingDims := []
  startIndexMap := [0]
  indexVectorDim := 1
  sliceSizes := ![1]
  wf := gather_S50000_S1650000x1_S1650000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S1650000x1_S1650000x128_1_0_n_n_0_1_1128 : GatherDims S50000x128 S1650000x1 S1650000x128 where
  offsetDims := [1]
  collapsedSliceDims := [0]
  operandBatchingDims := []
  startIndicesBatchingDims := []
  startIndexMap := [0]
  indexVectorDim := 1
  sliceSizes := ![1, 128]
  wf := gather_S50000x128_S1650000x1_S1650000x128_1_0_n_n_0_1_1128_wf
def scatter_S50000x128_S1650000x1_S1650000x128_1_0_0_1 : ScatterDims S50000x128 S1650000x1 S1650000x128 where
  updateWindowDims := [1]
  insertedWindowDims := [0]
  scatterDimsToOperandDims := [0]
  indexVectorDim := 1
  wf := scatter_S50000x128_S1650000x1_S1650000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v46) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v47) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v48) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x1600000 : Shape := ⟨2, ![2, 1600000]⟩
abbrev S1600000 : Shape := ⟨1, ![1600000]⟩
abbrev S128x128 : Shape := ⟨2, ![128, 128]⟩
abbrev S128 : Shape := ⟨1, ![128]⟩
abbrev S50000 : Shape := ⟨1, ![50000]⟩
abbrev S1x1600000 : Shape := ⟨2, ![1, 1600000]⟩
abbrev S1650000 : Shape := ⟨1, ![1650000]⟩
abbrev S_ : Shape := ⟨0, ![]⟩
abbrev S1650000x1 : Shape := ⟨2, ![1650000, 1]⟩
abbrev S1650000x128 : Shape := ⟨2, ![1650000, 128]⟩
abbrev S1x128 : Shape := ⟨2, ![1, 128]⟩

abbrev nBuf : Space → Nat
  | .hbm => 124
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x1600000, .i32⟩
  | .hbm, ⟨2, _⟩ => ⟨S1600000, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S50000, .i32⟩
  | .hbm, ⟨8, _⟩ => ⟨S1x1600000, .i32⟩
  | .hbm, ⟨9, _⟩ => ⟨S1600000, .i32⟩
  | .hbm, ⟨10, _⟩ => ⟨S1650000, .i32⟩
  | .hbm, ⟨11, _⟩ => ⟨S1x1600000, .i32⟩
  | .hbm, ⟨12, _⟩ => ⟨S1600000, .i32⟩
  | .hbm, ⟨13, _⟩ => ⟨S1650000, .i32⟩
  | .hbm, ⟨14, _⟩ => ⟨S_, .f32⟩
  | .hbm, ⟨15, _⟩ => ⟨S50000, .f32⟩
  | .hbm, ⟨16, _⟩ => ⟨S1650000, .f32⟩
  | .hbm, ⟨17, _⟩ => ⟨S_, .f32⟩
  | .hbm, ⟨18, _⟩ => ⟨S50000, .f32⟩
  | .hbm, ⟨19, _⟩ => ⟨S1650000x1, .i32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .i1⟩
  | .hbm, ⟨24, _⟩ => ⟨S50000, .f32⟩
  | .hbm, ⟨25, _⟩ => ⟨S_, .f32⟩
  | .hbm, ⟨26, _⟩ => ⟨S_, .f32⟩
  | .hbm, ⟨27, _⟩ => ⟨S50000, .f32⟩
  | .hbm, ⟨28, _⟩ => ⟨S50000, .f32⟩
  | .hbm, ⟨29, _⟩ => ⟨S_, .i32⟩
  | .hbm, ⟨30, _⟩ => ⟨S1650000, .i32⟩
  | .hbm, ⟨31, _⟩ => ⟨S1650000, .i1⟩
  | .hbm, ⟨32, _⟩ => ⟨S_, .i32⟩
  | .hbm, ⟨33, _⟩ => ⟨S1650000, .i32⟩
  | .hbm, ⟨34, _⟩ => ⟨S1650000, .i32⟩
  | .hbm, ⟨35, _⟩ => ⟨S1650000, .i32⟩
  | .hbm, ⟨36, _⟩ => ⟨S1650000x1, .i32⟩
  | .hbm, ⟨37, _⟩ => ⟨S1650000, .f32⟩
  | .hbm, ⟨38, _⟩ => ⟨S1650000, .f32⟩
  | .hbm, ⟨39, _⟩ => ⟨S_, .i32⟩
  | .hbm, ⟨40, _⟩ => ⟨S1650000, .i32⟩
  | .hbm, ⟨41, _⟩ => ⟨S1650000, .i1⟩
  | .hbm, ⟨42, _⟩ => ⟨S_, .i32⟩
  | .hbm, ⟨43, _⟩ => ⟨S1650000, .i32⟩
  | .hbm, ⟨44, _⟩ => ⟨S1650000, .i32⟩
  | .hbm, ⟨45, _⟩ => ⟨S1650000, .i32⟩
  | .hbm, ⟨46, _⟩ => ⟨S1650000x1, .i32⟩
  | .hbm, ⟨47, _⟩ => ⟨S1650000, .f32⟩
  | .hbm, ⟨48, _⟩ => ⟨S1650000, .f32⟩
  | .hbm, ⟨49, _⟩ => ⟨S50000x128, .f32⟩
  | .hbm, ⟨50, _⟩ => ⟨S_, .i32⟩
  | .hbm, ⟨51, _⟩ => ⟨S1650000, .i32⟩
  | .hbm, ⟨52, _⟩ => ⟨S1650000, .i1⟩
  | .hbm, ⟨53, _⟩ => ⟨S_, .i32⟩
  | .hbm, ⟨54, _⟩ => ⟨S1650000, .i32⟩
  | .hbm, ⟨55, _⟩ => ⟨S1650000, .i32⟩
  | .hbm, ⟨56, _⟩ => ⟨S1650000, .i32⟩
  | .hbm, ⟨57, _⟩ => ⟨S1650000x1, .i32⟩
  | .hbm, ⟨58, _⟩ => ⟨S1650000x128, .f32⟩
  | .hbm, ⟨59, _⟩ => ⟨S1650000x1, .f32⟩
  | .hbm, ⟨60, _⟩ => ⟨S1650000x128, .f32⟩
  | .hbm, ⟨61, _⟩ => ⟨S1650000x128, .f32⟩
  | .hbm, ⟨62, _⟩ => ⟨S_, .f32⟩
  | .hbm, ⟨63, _⟩ => ⟨S50000x128, .f32⟩
  | .hbm, ⟨64, _⟩ => ⟨S1650000x1, .i32⟩
  | .hbm, ⟨65, _⟩ => ⟨S50000x128, .f32⟩
  | .hbm, ⟨66, _⟩ => ⟨S1x128, .f32⟩
  | .hbm, ⟨67, _⟩ => ⟨S50000x128, .f32⟩
  | .hbm, ⟨68, _⟩ => ⟨S50000x128, .f32⟩
  | .hbm, ⟨69, _⟩ => ⟨S_, .f32⟩
  | .hbm, ⟨70, _⟩ => ⟨S50000x128, .f32⟩
  | .hbm, ⟨71, _⟩ => ⟨S50000x128, .f32⟩
  | .hbm, ⟨72, _⟩ => ⟨S_, .f32⟩
  | .hbm, ⟨73, _⟩ => ⟨S50000, .f32⟩
  | .hbm, ⟨74, _⟩ => ⟨S1650000x1, .i32⟩
  | .hbm, ⟨75, _⟩ => ⟨S50000, .f32⟩
  | .hbm, ⟨76, _⟩ => ⟨S_, .f32⟩
  | .hbm, ⟨77, _⟩ => ⟨S50000, .f32⟩
  | .hbm, ⟨78, _⟩ => ⟨S50000, .i1⟩
  | .hbm, ⟨79, _⟩ => ⟨S50000, .f32⟩
  | .hbm, ⟨80, _⟩ => ⟨S_, .f32⟩
  | .hbm, ⟨81, _⟩ => ⟨S_, .f32⟩
  | .hbm, ⟨82, _⟩ => ⟨S50000, .f32⟩
  | .hbm, ⟨83, _⟩ => ⟨S50000, .f32⟩
  | .hbm, ⟨84, _⟩ => ⟨S_, .i32⟩
  | .hbm, ⟨85, _⟩ => ⟨S1650000, .i32⟩
  | .hbm, ⟨86, _⟩ => ⟨S1650000, .i1⟩
  | .hbm, ⟨87, _⟩ => ⟨S_, .i32⟩
  | .hbm, ⟨88, _⟩ => ⟨S1650000, .i32⟩
  | .hbm, ⟨89, _⟩ => ⟨S1650000, .i32⟩
  | .hbm, ⟨90, _⟩ => ⟨S1650000, .i32⟩
  | .hbm, ⟨91, _⟩ => ⟨S1650000x1, .i32⟩
  | .hbm, ⟨92, _⟩ => ⟨S1650000, .f32⟩
  | .hbm, ⟨93, _⟩ => ⟨S1650000, .f32⟩
  | .hbm, ⟨94, _⟩ => ⟨S_, .i32⟩
  | .hbm, ⟨95, _⟩ => ⟨S1650000, .i32⟩
  | .hbm, ⟨96, _⟩ => ⟨S1650000, .i1⟩
  | .hbm, ⟨97, _⟩ => ⟨S_, .i32⟩
  | .hbm, ⟨98, _⟩ => ⟨S1650000, .i32⟩
  | .hbm, ⟨99, _⟩ => ⟨S1650000, .i32⟩
  | .hbm, ⟨100, _⟩ => ⟨S1650000, .i32⟩
  | .hbm, ⟨101, _⟩ => ⟨S1650000x1, .i32⟩
  | .hbm, ⟨102, _⟩ => ⟨S1650000, .f32⟩
  | .hbm, ⟨103, _⟩ => ⟨S1650000, .f32⟩
  | .hbm, ⟨104, _⟩ => ⟨S50000x128, .f32⟩
  | .hbm, ⟨105, _⟩ => ⟨S_, .i32⟩
  | .hbm, ⟨106, _⟩ => ⟨S1650000, .i32⟩
  | .hbm, ⟨107, _⟩ => ⟨S1650000, .i1⟩
  | .hbm, ⟨108, _⟩ => ⟨S_, .i32⟩
  | .hbm, ⟨109, _⟩ => ⟨S1650000, .i32⟩
  | .hbm, ⟨110, _⟩ => ⟨S1650000, .i32⟩
  | .hbm, ⟨111, _⟩ => ⟨S1650000, .i32⟩
  | .hbm, ⟨112, _⟩ => ⟨S1650000x1, .i32⟩
  | .hbm, ⟨113, _⟩ => ⟨S1650000x128, .f32⟩
  | .hbm, ⟨114, _⟩ => ⟨S1650000x1, .f32⟩
  | .hbm, ⟨115, _⟩ => ⟨S1650000x128, .f32⟩
  | .hbm, ⟨116, _⟩ => ⟨S1650000x128, .f32⟩
  | .hbm, ⟨117, _⟩ => ⟨S_, .f32⟩
  | .hbm, ⟨118, _⟩ => ⟨S50000x128, .f32⟩
  | .hbm, ⟨119, _⟩ => ⟨S1650000x1, .i32⟩
  | .hbm, ⟨120, _⟩ => ⟨S50000x128, .f32⟩
  | .hbm, ⟨121, _⟩ => ⟨S1x128, .f32⟩
  | .hbm, ⟨122, _⟩ => ⟨S50000x128, .f32⟩
  | .hbm, ⟨123, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v15 : Ref sig .tc := ⟨.hbm, 28, rfl⟩
abbrev main_c : Ref sig .tc := ⟨.hbm, 29, rfl⟩
abbrev main_v16 : Ref sig .tc := ⟨.hbm, 30, rfl⟩
abbrev main_v17 : Ref sig .tc := ⟨.hbm, 31, rfl⟩
abbrev main_c_3 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_4 : Ref sig .tc := ⟨.hbm, 39, rfl⟩
abbrev main_v24 : Ref sig .tc := ⟨.hbm, 40, rfl⟩
abbrev main_v25 : Ref sig .tc := ⟨.hbm, 41, rfl⟩
abbrev main_c_5 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_6 : Ref sig .tc := ⟨.hbm, 50, rfl⟩
abbrev main_v33 : Ref sig .tc := ⟨.hbm, 51, rfl⟩
abbrev main_v34 : Ref sig .tc := ⟨.hbm, 52, rfl⟩
abbrev main_c_7 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_8 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_call1_cst : Ref sig .tc := ⟨.hbm, 69, rfl⟩
abbrev main_call1_v0 : Ref sig .tc := ⟨.hbm, 70, rfl⟩
abbrev main_v49 : Ref sig .tc := ⟨.hbm, 71, rfl⟩
abbrev main_cst_9 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_cst_10 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_cst_11 : Ref sig .tc := ⟨.hbm, 80, rfl⟩
abbrev main_call2_v0 : Ref sig .tc := ⟨.hbm, 81, rfl⟩
abbrev main_call2_v1 : Ref sig .tc := ⟨.hbm, 82, rfl⟩
abbrev main_v56 : Ref sig .tc := ⟨.hbm, 83, rfl⟩
abbrev main_c_12 : Ref sig .tc := ⟨.hbm, 84, rfl⟩
abbrev main_v57 : Ref sig .tc := ⟨.hbm, 85, rfl⟩
abbrev main_v58 : Ref sig .tc := ⟨.hbm, 86, rfl⟩
abbrev main_c_13 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_c_14 : Ref sig .tc := ⟨.hbm, 94, rfl⟩
abbrev main_v65 : Ref sig .tc := ⟨.hbm, 95, rfl⟩
abbrev main_v66 : Ref sig .tc := ⟨.hbm, 96, rfl⟩
abbrev main_c_15 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_c_16 : Ref sig .tc := ⟨.hbm, 105, rfl⟩
abbrev main_v74 : Ref sig .tc := ⟨.hbm, 106, rfl⟩
abbrev main_v75 : Ref sig .tc := ⟨.hbm, 107, rfl⟩
abbrev main_c_17 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_cst_18 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S50000_S1650000_d0 : Shape.Concatenates [S1600000, S50000] S1650000 0
  slices_S2x1600000_S1x1600000_1_0 : S2x1600000.Slices ![1, 0] S1x1600000
  bcast_S_S50000 : S_.BroadcastsInDim S50000 (![] : Fin 0 → Fin S50000.rank)
  bcast_S1650000_S1650000x1_0 : S1650000.BroadcastsInDim S1650000x1 (![0] : Fin 1 → Fin S1650000x1.rank)
  bcast_S_S1650000 : S_.BroadcastsInDim S1650000 (![] : Fin 0 → Fin S1650000.rank)
  bcast_S1650000x1_S1650000x128_0_1 : S1650000x1.BroadcastsInDim S1650000x128 (![0, 1] : Fin 2 → Fin S1650000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  scatter_S50000_S1650000x1_S1650000_n_0_0_1_wf : ScatterDims.WF S50000 S1650000x1 S1650000 [] [0] [0] 1
  gather_S50000_S1650000x1_S1650000_n_0_n_n_0_1_1_wf : GatherDims.WF S50000 S1650000x1 S1650000 [] [0] [] [0] [] 1 ![1]
  dot_S50000x128_S128x128_S50000x128_1_0_0_1_n_n_wf : DotDims.WF S50000x128 S128x128 S50000x128 [1] [0] [0] [1] [] []
  gather_S50000x128_S1650000x1_S1650000x128_1_0_n_n_0_1_1128_wf : GatherDims.WF S50000x128 S1650000x1 S1650000x128 [1] [0] [] [0] [] 1 ![1, 128]
  scatter_S50000x128_S1650000x1_S1650000x128_1_0_0_1_wf : ScatterDims.WF S50000x128 S1650000x1 S1650000x128 [1] [0] [0] 1

variable [Facts₀]

def scatter_S50000_S1650000x1_S1650000_n_0_0_1 : ScatterDims S50000 S1650000x1 S1650000 where
  updateWindowDims := []
  insertedWindowDims := [0]
  scatterDimsToOperandDims := [0]
  indexVectorDim := 1
  wf := scatter_S50000_S1650000x1_S1650000_n_0_0_1_wf
def gather_S50000_S1650000x1_S1650000_n_0_n_n_0_1_1 : GatherDims S50000 S1650000x1 S1650000 where
  offsetDims := []
  collapsedSliceDims := [0]
  operandBatchingDims := []
  startIndicesBatchingDims := []
  startIndexMap := [0]
  indexVectorDim := 1
  sliceSizes := ![1]
  wf := gather_S50000_S1650000x1_S1650000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S1650000x1_S1650000x128_1_0_n_n_0_1_1128 : GatherDims S50000x128 S1650000x1 S1650000x128 where
  offsetDims := [1]
  collapsedSliceDims := [0]
  operandBatchingDims := []
  startIndicesBatchingDims := []
  startIndexMap := [0]
  indexVectorDim := 1
  sliceSizes := ![1, 128]
  wf := gather_S50000x128_S1650000x1_S1650000x128_1_0_n_n_0_1_1128_wf
def scatter_S50000x128_S1650000x1_S1650000x128_1_0_0_1 : ScatterDims S50000x128 S1650000x1 S1650000x128 where
  updateWindowDims := [1]
  insertedWindowDims := [0]
  scatterDimsToOperandDims := [0]
  indexVectorDim := 1
  wf := scatter_S50000x128_S1650000x1_S1650000x128_1_0_0_1_wf

class Facts : Prop extends Facts₀ where

variable [Facts]
-- ==== Proof.RunResult.lean ====
/-
  The idealized kernel program's run with its result named.

  @main is seven segments: three stretches of host operations (the edge lists with self loops appended, the degrees,
  the symmetric normalisation), the first matrix-product region, a stretch (gather along the sources, scale, add up
  at the targets), the second region (bias, rectifier, matrix product), and a last stretch (the same aggregation and
  the final bias). The buffer contents at each boundary are a fold from the launch memory; the run ends, every core's
  unscoped buffers at the last boundary's contents. Read at the result buffer this names the program's result as the
  last boundary's contents there, and at the argument buffers it gives the arguments as launched.
-/
import proofs.«114557_j83494164234348_2_alg».proof.Proof.Gen.KernelIdeal.Frame

set_option maxRecDepth 16384

noncomputable section

namespace Cert.KernelIdeal.GcnRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main ends, nothing faulting, with the result buffer at the last boundary's
    contents and the seven arguments as launched. -/
theorem run_result : θ_run defs (onTc (τ := τ) (main (F := F))) ⟨m, fun _ => 0, ρ⟩ (fun r => ∀ c : Dev nD,
      r.2.mem ((c.tc : Thread nD τ).loc main_v65) = W7 m ρ c (Proc.devRef .tc main_v65)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v65 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c)⟩)

end Cert.KernelIdeal.GcnRun

end
-- ==== Proof.LibTypedRef.lean ====
/-
  A buffer reference that carries the type of the tensor value it holds moves contents between "the value's type" and
  "the buffer's own type" along the equation between the two. Going one way and then back is the identity, for any
  such reference: the two transports are along an equation and its inverse.
-/
import Idealize.ShloMosaic.Lib.StableHlo

namespace Cert.TypedRef

open Idealize.ShloMosaic Idealize.ShloMosaic.StableHlo

/-- To the buffer's type and back is the identity. -/
theorem ofBuf_toBuf {sig : RefSig} {T : BufTy} {Val : EltTy → Type} (x : TRef sig T) (v : T.Contents Val) :
    x.ofBuf (x.toBuf v) = v := by
  unfold TRef.ofBuf TRef.toBuf
  simp

end Cert.TypedRef
-- ==== Proof.LibJoinPair.lean ====
/-
  Two arrays joined along an axis, with the side condition stated of the shapes alone.

  The joined array `concatenate t a [⟨s₁, x₁⟩, ⟨s₂, x₂⟩] h` carries a side condition `h` whose statement mentions the list
  of (shape, array) pairs, although it only reads the shapes. That dependence stands in the way of rewriting the two
  arrays in place: a rewriting pass keeps the whole list fixed. `joinPair` is the same function with the side condition
  stated of `[s₁, s₂]`; the two are equal by unfolding, for any element type, any shapes and any axis. Rewriting a
  two-piece join to `joinPair` lets a later pass reach the two arrays.
-/
import Idealize.ShloMosaic.PureOps.ShapeOps

noncomputable section

namespace Cert.JoinPair

open Idealize.ShloMosaic

/-- Two arrays joined along axis `a` of the result shape `t`. -/
def joinPair {α : Type} (t : Shape) (a : Fin t.rank) (s₁ s₂ : Shape) (h : Shape.Concatenates [s₁, s₂] t a)
    (x₁ : s₁.Idx → α) (x₂ : s₂.Idx → α) : t.Idx → α :=
  concatenate t a [⟨s₁, x₁⟩, ⟨s₂, x₂⟩] h

/-- A two-piece join is `joinPair` of its pieces: a rewrite rule from the list form to the form whose arrays can be
    rewritten. -/
theorem concatenate_pair_eq {α : Type} (t : Shape) (a : Fin t.rank) (s₁ s₂ : Shape) (x₁ : s₁.Idx → α) (x₂ : s₂.Idx → α)
    (h : Shape.Concatenates (List.map (fun p : (s : Shape) × (s.Idx → α) => p.1) [⟨s₁, x₁⟩, ⟨s₂, x₂⟩]) t a) :
    concatenate t a [⟨s₁, x₁⟩, ⟨s₂, x₂⟩] h = joinPair t a s₁ s₂ h x₁ x₂ := rfl

end Cert.JoinPair

end
-- ==== Proof.HostStages.lean ====
/-
  The host operations around the two regions, stretch by stretch, as functions of what each stretch finds.

  Before the first region: the source list `row` and the target list `col` (each edge list with the self loops
  0 … 49999 appended), the weights with a 1 per self loop, the degrees (weights added up at the targets), their inverse
  square roots where positive and 0 elsewhere, and the per-edge normalisation
  `norm = dis[row] * weight * dis[col]`. These are, operation for operation, what the reference computes from the same two
  arguments, so each is named by the reference's own stage.

  Between the regions: the rows of H1 gathered along `row` (negative indices wrapped by 50000), scaled by `norm`, and added
  up at `col` — the reference's first aggregation, applied to whatever array stands in for H1; and the bias b1 laid
  out as a 1×128 row. After the second region: the same aggregation of H2 and the final bias, the reference's last
  stages. The second time the reference recomputes the normalisation from the same arguments by the same operations,
  which is the same array. A conversion between float formats is the identity on extended reals, so gathering in one
  format and converting is gathering.
-/
import proofs.«114557_j83494164234348_2_alg».proof.Proof.Gen.KernelIdeal.Launch
import proofs.«114557_j83494164234348_2_alg».proof.Proof.Gen.ReferenceIdeal.Read
import proofs.«114557_j83494164234348_2_alg».proof.Proof.LibTypedRef
import proofs.«114557_j83494164234348_2_alg».proof.Proof.LibJoinPair
import Idealize.ShloMosaic.Lib.StableHlo.Run

set_option maxRecDepth 16384

noncomputable section

namespace Cert.Gcn

open Idealize.ShloMosaic Idealize.ShloMosaic.TcCoe Idealize.SL.Sem Idealize.ShloMosaic.StableHlo
open Cert.KernelIdeal Cert.KernelIdeal.Gen
open Cert.ReferenceIdeal.Read

variable (V : Valuation τ sig (Elt Ideal))

/-! ## The first stretch: edge lists, weights, degrees -/

/-- The source list with the self loops appended. -/
theorem s0_row : after hostOps0 V (Proc.devRef .tc main_v5) = val_main_v3 (F := Ideal) (V (Proc.devRef .tc main_arg1)) := by
  after_results_simp
  simp only [Cert.JoinPair.concatenate_pair_eq]
  after_results_simp
  unfold Cert.JoinPair.joinPair
  rfl

/-- The target list with the self loops appended. -/
theorem s0_col : after hostOps0 V (Proc.devRef .tc main_v6) = val_main_v6 (F := Ideal) (V (Proc.devRef .tc main_arg1)) := by
  after_results_simp
  simp only [Cert.JoinPair.concatenate_pair_eq]
  after_results_simp
  unfold Cert.JoinPair.joinPair
  rfl

/-- The weights with a 1 per self loop. -/
theorem s0_wt : after hostOps0 V (Proc.devRef .tc main_v8) = val_main_v8 (F := Ideal) (V (Proc.devRef .tc main_arg2)) := by
  after_results_simp
  simp only [Cert.JoinPair.concatenate_pair_eq]
  after_results_simp
  unfold Cert.JoinPair.joinPair
  rfl

/-- Where the degree is positive. -/
theorem s0_pos : after hostOps0 V (Proc.devRef .tc main_v13)
    = val_main_v13 (F := Ideal) (V (Proc.devRef .tc main_arg1)) (V (Proc.devRef .tc main_arg2)) := by
  after_results_simp
  simp only [Cert.JoinPair.concatenate_pair_eq]
  after_results_simp
  unfold Cert.JoinPair.joinPair
  rfl

/-- The degrees' inverse square roots. -/
theorem s0_rsqrt : after hostOps0 V (Proc.devRef .tc main_v14)
    = val_main_v14 (F := Ideal) (V (Proc.devRef .tc main_arg1)) (V (Proc.devRef .tc main_arg2)) := by
  after_results_simp
  simp only [Cert.JoinPair.concatenate_pair_eq]
  after_results_simp
  unfold Cert.JoinPair.joinPair
  rfl

/-- The zero the selection falls back to. -/
theorem s0_zero : after hostOps0 V (Proc.devRef .tc main_cst_2) = val_main_cst_2 (F := Ideal) := by
  after_results_simp
  rfl

/-! ## The second stretch: the selection -/

/-- Three arrays equal one by one give equal selections. -/
theorem select_congr3 {s : Shape} {α : Type} {a a' : IVec s 1} {b b' c c' : s.Idx → α}
    (ha : a = a') (hb : b = b') (hc : c = c') : select a b c = select a' b' c' := by
  subst ha hb hc; rfl

/-- The inverse square root where the degree is positive, 0 elsewhere, from what the stretch finds. The selection is
    done in an outlined function whose buffers carry their tensor types: moving contents between a buffer's own type and
    the tensor's type changes nothing. -/
theorem s1_dis (x1 : IVec ⟨2, ![2, 1600000]⟩ 32) (x2 : FVec Ideal ⟨1, ![1600000]⟩ .f32)
    (h13 : V (Proc.devRef .tc main_v13) = val_main_v13 (F := Ideal) x1 x2)
    (h14 : V (Proc.devRef .tc main_v14) = val_main_v14 (F := Ideal) x1 x2)
    (hc : V (Proc.devRef .tc main_cst_2) = val_main_cst_2 (F := Ideal)) :
    after hostOps0_1 V (Proc.devRef .tc main_v15) = val_main_v15 (F := Ideal) x1 x2 := by
  after_results_simp
  rw [h13, h14, hc]
  simp only [Cert.TypedRef.ofBuf_toBuf]
  refine eq_of_heq ((cast_heq _ _).trans (heq_of_eq ?_))
  unfold val_main_v15 val_main_call0_v1 val_main_call0_v0
  refine select_congr3 (eq_of_heq (cast_heq _ _)) (eq_of_heq (cast_heq _ _)) ?_
  exact congrArg (fun z : (⟨S_, .f32⟩ : BufTy).Contents (Elt Ideal) => broadcastInDim S50000 ![] bcast_S_S50000 (id z))
    (eq_of_heq (cast_heq _ _))

theorem s1_keep_row : after hostOps0_1 V (Proc.devRef .tc main_v5) = V (Proc.devRef .tc main_v5) := by after_results_simp
theorem s1_keep_col : after hostOps0_1 V (Proc.devRef .tc main_v6) = V (Proc.devRef .tc main_v6) := by after_results_simp
theorem s1_keep_wt : after hostOps0_1 V (Proc.devRef .tc main_v8) = V (Proc.devRef .tc main_v8) := by after_results_simp

/-! ## The third stretch: the normalisation -/

/-- `norm = dis[row] * weight * dis[col]`, from what the stretch finds. -/
theorem s2_norm (x1 : IVec ⟨2, ![2, 1600000]⟩ 32) (x2 : FVec Ideal ⟨1, ![1600000]⟩ .f32)
    (h15 : V (Proc.devRef .tc main_v15) = val_main_v15 (F := Ideal) x1 x2)
    (h5 : V (Proc.devRef .tc main_v5) = val_main_v3 (F := Ideal) x1)
    (h6 : V (Proc.devRef .tc main_v6) = val_main_v6 (F := Ideal) x1)
    (h8 : V (Proc.devRef .tc main_v8) = val_main_v8 (F := Ideal) x2) :
    after hostOps0_2 V (Proc.devRef .tc main_v31) = val_main_v31 (F := Ideal) x1 x2 := by
  after_results_simp
  rw [h15, h5, h6, h8]
  rfl

theorem s2_keep_row : after hostOps0_2 V (Proc.devRef .tc main_v5) = V (Proc.devRef .tc main_v5) := by after_results_simp
theorem s2_keep_col : after hostOps0_2 V (Proc.devRef .tc main_v6) = V (Proc.devRef .tc main_v6) := by after_results_simp

/-! ## The three stretches leave the float arguments alone -/

theorem pre_keep_arg0 :
    after hostOps0_2 (after hostOps0_1 (after hostOps0 V)) (Proc.devRef .tc main_arg0) = V (Proc.devRef .tc main_arg0) := by
  after_results_simp
theorem pre_keep_arg3 :
    after hostOps0_2 (after hostOps0_1 (after hostOps0 V)) (Proc.devRef .tc main_arg3) = V (Proc.devRef .tc main_arg3) := by
  after_results_simp
theorem pre_keep_arg4 :
    after hostOps0_2 (after hostOps0_1 (after hostOps0 V)) (Proc.devRef .tc main_arg4) = V (Proc.devRef .tc main_arg4) := by
  after_results_simp
theorem pre_keep_arg5 :
    after hostOps0_2 (after hostOps0_1 (after hostOps0 V)) (Proc.devRef .tc main_arg5) = V (Proc.devRef .tc main_arg5) := by
  after_results_simp
theorem pre_keep_arg6 :
    after hostOps0_2 (after hostOps0_1 (after hostOps0 V)) (Proc.devRef .tc main_arg6) = V (Proc.devRef .tc main_arg6) := by
  after_results_simp

/-! ## Between the regions -/

/-- The first aggregation, of whatever stands in for H1, the edge lists and the normalisation. -/
theorem s3_agg (x0 : FVec Ideal ⟨2, ![50000, 128]⟩ .f32) (x1 : IVec ⟨2, ![2, 1600000]⟩ 32)
    (x2 : FVec Ideal ⟨1, ![1600000]⟩ .f32) (x3 : FVec Ideal ⟨2, ![128, 128]⟩ .f32)
    (h32 : V (Proc.devRef .tc main_v32) = val_main_v32 (F := Ideal) x0 x3)
    (h5 : V (Proc.devRef .tc main_v5) = val_main_v3 (F := Ideal) x1)
    (h6 : V (Proc.devRef .tc main_v6) = val_main_v6 (F := Ideal) x1)
    (h31 : V (Proc.devRef .tc main_v31) = val_main_v31 (F := Ideal) x1 x2) :
    after hostOps1 V (Proc.devRef .tc main_v46) = val_main_v45 (F := Ideal) x0 x1 x2 x3 := by
  after_results_simp
  rw [h32, h5, h6, h31]
  rfl

/-- The bias as a 1×128 row. -/
theorem s3_bias : after hostOps1 V (Proc.devRef .tc main_v47)
    = shapeCast S1x128 (V (Proc.devRef .tc main_arg4)) shapeCasts_S128_S1x128 := by
  after_results_simp
  rfl

theorem s3_keep_row : after hostOps1 V (Proc.devRef .tc main_v5) = V (Proc.devRef .tc main_v5) := by after_results_simp
theorem s3_keep_col : after hostOps1 V (Proc.devRef .tc main_v6) = V (Proc.devRef .tc main_v6) := by after_results_simp
theorem s3_keep_norm : after hostOps1 V (Proc.devRef .tc main_v31) = V (Proc.devRef .tc main_v31) := by after_results_simp
theorem s3_keep_arg5 : after hostOps1 V (Proc.devRef .tc main_arg5) = V (Proc.devRef .tc main_arg5) := by after_results_simp
theorem s3_keep_arg6 : after hostOps1 V (Proc.devRef .tc main_arg6) = V (Proc.devRef .tc main_arg6) := by after_results_simp

/-! ## After the second region -/

/-- The second aggregation and the final bias: the reference's result. -/
theorem s4_out (x0 : FVec Ideal ⟨2, ![50000, 128]⟩ .f32) (x1 : IVec ⟨2, ![2, 1600000]⟩ 32)
    (x2 : FVec Ideal ⟨1, ![1600000]⟩ .f32) (x3 : FVec Ideal ⟨2, ![128, 128]⟩ .f32) (x4 : FVec Ideal ⟨1, ![128]⟩ .f32)
    (x5 : FVec Ideal ⟨2, ![128, 128]⟩ .f32) (x6 : FVec Ideal ⟨1, ![128]⟩ .f32)
    (h48 : V (Proc.devRef .tc main_v48) = val_main_v73 (F := Ideal) x0 x1 x2 x3 x4 x5)
    (h5 : V (Proc.devRef .tc main_v5) = val_main_v3 (F := Ideal) x1)
    (h6 : V (Proc.devRef .tc main_v6) = val_main_v6 (F := Ideal) x1)
    (h31 : V (Proc.devRef .tc main_v31) = val_main_v31 (F := Ideal) x1 x2)
    (hb : V (Proc.devRef .tc main_arg6) = x6) :
    after hostOps2 V (Proc.devRef .tc main_v65) = val_main_v89 (F := Ideal) x0 x1 x2 x3 x4 x5 x6 := by
  after_results_simp
  rw [h48, h5, h6, h31, hb]
  rfl

end Cert.Gcn

end
-- ==== Proof.LibPlainDot.lean ====
/-
  A rows-by-columns contraction read as a plain sum.

  Take operands of shapes [A, K] and [K, B] and a result of shape [A, B], with dimension numbers that say: no batch
  axes; the left operand keeps its axis 0 and the right its axis 1; axis 1 of the left is contracted against axis 0 of
  the right. The contraction's own index set is then a one-axis shape of extent K, and the sum over it of
  `x (left index) * y (right index)` at the result index (p, q) is `∑ k < K, x (p, k) * y (k, q)`: on its kept axis
  each operand reads the result's coordinate, on its contracted axis the contraction's one coordinate.

  Stated for ANY record with these dimension numbers and for any A, K, B, so the same lemma reads a matrix product
  of one block and a `dot_general` of a whole array. The extended reals enter only as the type the products are
  taken in: nothing here uses more than the sum's re-indexing along a bijection.
-/
import Idealize.ShloMosaic.Lib.ValueIdx
import Idealize.ShloMosaic.PureOps.Ideal.Laws

open scoped BigOperators

namespace Cert.PlainDot

open Idealize.ShloMosaic Idealize.ShloMosaic.ValueIdx

variable {A K B : Nat} (d : DotDims ⟨2, ![A, K]⟩ ⟨2, ![K, B]⟩ ⟨2, ![A, B]⟩)

/-- One index read at two spellings of one position gives one number. -/
theorem val_at_eq {s : Shape} (j : s.Idx) (u v : Nat) (hu : u < s.rank) (hv : v < s.rank) (h : u = v) :
    (j ⟨u, hu⟩).val = (j ⟨v, hv⟩).val := by
  subst h; rfl

/-- On its kept axis (axis 0) the left operand's index is the result's row coordinate: with no batch axis, the
    left operand's one kept axis is the result's axis 0. -/
theorem lhs_row (hlb : d.lhsBatch = []) (hln : d.lhsNonContracting = [0])
    (j : (⟨2, ![A, B]⟩ : Shape).Idx) (k : d.contr.Idx) : (d.lhsIdx j k 0).val = (j 0).val := by
  unfold DotDims.lhsIdx
  rw [dif_neg (by rw [hlb]; exact List.not_mem_nil), dif_pos (by rw [hln]; exact List.mem_singleton.mpr rfl)]
  show (j ⟨_, _⟩).val = (j ⟨0, _⟩).val
  exact val_at_eq j _ _ _ _ (by simp [hlb, hln])

/-- On its kept axis (axis 1) the right operand's index is the result's column coordinate: the result's axes are
    the batch axes (none), then the left's kept axes (one), then the right's kept axes, so this one is axis 1. -/
theorem rhs_col (hlb : d.lhsBatch = []) (hln : d.lhsNonContracting = [0]) (hrb : d.rhsBatch = [])
    (hrn : d.rhsNonContracting = [1]) (j : (⟨2, ![A, B]⟩ : Shape).Idx) (k : d.contr.Idx) :
    (d.rhsIdx j k 1).val = (j 1).val := by
  unfold DotDims.rhsIdx
  rw [dif_neg (by rw [hrb]; exact List.not_mem_nil), dif_pos (by rw [hrn]; exact List.mem_singleton.mpr rfl)]
  show (j ⟨_, _⟩).val = (j ⟨1, _⟩).val
  exact val_at_eq j _ _ _ _ (by simp [hlb, hln, hrn])

/-- THE SUM: over the contraction's index set, the products of the operands at the record's operand indices are the
    products along row `p` of the left and column `q` of the right. -/
theorem sum_eq (hlb : d.lhsBatch = []) (hln : d.lhsNonContracting = [0]) (hlc : d.lhsContracting = [1])
    (hrb : d.rhsBatch = []) (hrn : d.rhsNonContracting = [1]) (hrc : d.rhsContracting = [0])
    (hr : d.contr.rank = 1) (hs : d.contr.size ⟨0, by omega⟩ = K)
    (x : (⟨2, ![A, K]⟩ : Shape).Idx → EReal) (y : (⟨2, ![K, B]⟩ : Shape).Idx → EReal) (p : Fin A) (q : Fin B) :
    ∑ k : d.contr.Idx, x (d.lhsIdx (ix2 p q) k) * y (d.rhsIdx (ix2 p q) k) = ∑ k : Fin K, x (ix2 p k) * y (ix2 k q) := by
  rw [← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact lhs_row d hlb hln _ _
    | ⟨1, _⟩ => exact (d.lhsIdx_val_of_single hlc _ _).trans hk)
  have er : d.rhsIdx (ix2 p q) ((contrEquiv1 d K hr hs).symm k) = ix2 k q := funext fun a => Fin.ext (by
    match a with
    | ⟨0, _⟩ => exact (d.rhsIdx_val_of_single hrc _ _).trans hk
    | ⟨1, _⟩ => exact rhs_col d hlb hln hrb hrn _ _)
  rw [el, er]

end Cert.PlainDot
-- ==== Proof.LibDotSums.lean ====
/-
  Matrix products at the exact values, read entry by entry.

  For operands of shapes [A, K] and [K, B] whose dimension numbers say "no batch axes, contract axis 1 of the left
  against axis 0 of the right", both the in-kernel product accumulated into a zero tile and the host's `dot_general`
  have, at the entry (p, q), the value `∑ k < K, x (p, k) * y (k, q)`: over the extended reals neither carries a rounding
  or an order of summation, so the two are the same finite sum. The re-indexing of the contraction's own index set to
  `Fin K` is the rows-by-columns lemma for such records.
-/
import proofs.«114557_j83494164234348_2_alg».proof.Proof.LibPlainDot

open scoped BigOperators

namespace Cert.DotSums

open Idealize.ShloMosaic Idealize.ShloMosaic.ValueIdx

variable {A K B : Nat} (d : DotDims ⟨2, ![A, K]⟩ ⟨2, ![K, B]⟩ ⟨2, ![A, B]⟩)

/-- The in-kernel product into a zero accumulator, at (p, q): the plain sum along row p and column q. -/
theorem matmul_zero_ix2 {φ₁ φ₂ : FTy} (prec : Option ContractPrecision)
    (hlb : d.lhsBatch = []) (hln : d.lhsNonContracting = [0]) (hlc : d.lhsContracting = [1])
    (hrb : d.rhsBatch = []) (hrn : d.rhsNonContracting = [1]) (hrc : d.rhsContracting = [0])
    (hr : d.contr.rank = 1) (hs : d.contr.size ⟨0, by omega⟩ = K)
    (x : FVec Ideal ⟨2, ![A, K]⟩ φ₁) (y : FVec Ideal ⟨2, ![K, B]⟩ φ₂) (p : Fin A) (q : Fin B) :
    FloatOps.matmul d prec x y (constant ⟨2, ![A, B]⟩ .f32 0x00000000#32) (ix2 p q)
      = ∑ k : Fin K, (x (ix2 p k) : EReal) * (y (ix2 k q) : EReal) :=
  (Ideal.matmul_constant_zero_apply d prec x y (ix2 p q)).trans
    (Cert.PlainDot.sum_eq d hlb hln hlc hrb hrn hrc hr hs x y p q)

/-- The host's `dot_general`, at (p, q): the same plain sum, whatever the schedule key. -/
theorem dotGeneral_ix2 {φ₁ φ₂ : FTy} (prec : Option ContractPrecision) (sched : HostSchedule)
    (hlb : d.lhsBatch = []) (hln : d.lhsNonContracting = [0]) (hlc : d.lhsContracting = [1])
    (hrb : d.rhsBatch = []) (hrn : d.rhsNonContracting = [1]) (hrc : d.rhsContracting = [0])
    (hr : d.contr.rank = 1) (hs : d.contr.size ⟨0, by omega⟩ = K)
    (x : FVec Ideal ⟨2, ![A, K]⟩ φ₁) (y : FVec Ideal ⟨2, ![K, B]⟩ φ₂) (p : Fin A) (q : Fin B) :
    FloatOps.dotGeneral d prec sched x y (ix2 p q)
      = ∑ k : Fin K, (x (ix2 p k) : EReal) * (y (ix2 k q) : EReal) :=
  (Ideal.dotGeneral_apply d prec sched x y (ix2 p q)).trans
    (Cert.PlainDot.sum_eq d hlb hln hlc hrb hrn hrc hr hs x y p q)

end Cert.DotSums
-- ==== Proof.Payloads.lean ====
/-
  What each kernel body computes, entry by entry, at the exact values.

  Body 0 takes a block X of 5000 rows of the node features and the whole 128×128 weight matrix W and stores X · W:
  the roundings to bf16 on the way into and out of the product are the identity on extended reals, and the product
  into a zero tile is the plain sum, so the stored tile holds `∑ k, X (p, k) * W (k, q)` at (p, q).

  Body 1 takes a block Y of 5000 rows of the aggregated messages, the bias as a 1×128 row b and the weight matrix W
  and stores max (Y + b, 0) · W, the bias row repeated down the 5000 rows: at (p, q) the stored tile holds
  `∑ k, max (Y (p, k) + b (0, k)) 0 * W (k, q)`, the 0 being the exact value of the float zero pattern.
-/
import proofs.«114557_j83494164234348_2_alg».proof.Proof.Gen.KernelIdeal.Skeleton
import proofs.«114557_j83494164234348_2_alg».proof.Proof.LibDotSums
import Idealize.ShloMosaic.Lib.Pipeline.Value
import Idealize.ShloMosaic.Lib.ValueLayout

open scoped BigOperators

noncomputable section

namespace Cert.Gcn

open Idealize.ShloMosaic Idealize.ShloMosaic.ValueIdx Cert.KernelIdeal Cert.KernelIdeal.Gen

/-- Body 0's stored tile at (p, q). -/
theorem pay0_apply (x0 : FVec Ideal S5000x128 .f32) (x1 : FVec Ideal S128x128 .f32) (p : Fin 5000) (q : Fin 128) :
    k0_pay1 (F := Ideal) x0 x1 (ix2 p q) = ∑ k : Fin 128, (x0 (ix2 p k) : EReal) * (x1 (ix2 k q) : EReal) := by
  unfold k0_pay1
  refine (truncf_apply _ bitsLt_bf16_f32 (ix2 p q)).trans ?_
  exact Cert.DotSums.matmul_zero_ix2 (φ₁ := .bf16) (φ₂ := .bf16) dot_S5000x128_S128x128_S5000x128_1_0_0_1_n_n none
    rfl rfl rfl rfl rfl rfl rfl rfl (truncf .bf16 x0 bitsLt_bf16_f32) (truncf .bf16 x1 bitsLt_bf16_f32) p q

/-- The bias row repeated down the rows, at (p, k): the row's entry k. -/
theorem biasRows_apply (b : FVec Ideal S1x128 .f32) (p : Fin 5000) (k : Fin 128) :
    broadcastTo S5000x128 (shapeCast S1x128 b shapeCasts_S1x128_S1x128) broadcasts_S1x128_S5000x128 (ix2 p k)
      = b (ix2 (0 : Fin 1) k) := by
  rw [shapeCast_self]
  exact broadcastTo_apply b broadcasts_S1x128_S5000x128 (ix2 p k) (ix2 (0 : Fin 1) k) (fun a => by
    match a with
    | ⟨0, _⟩ => show 0 = if (1 : Nat) = 1 then 0 else _; rw [if_pos rfl]
    | ⟨1, _⟩ => show k.val = if (128 : Nat) = 1 then 0 else k.val; rw [if_neg (by decide)])

/-- Body 1's stored tile at (p, q). -/
theorem pay1_apply (x0 : FVec Ideal S5000x128 .f32) (b : FVec Ideal S1x128 .f32) (x2 : FVec Ideal S128x128 .f32)
    (p : Fin 5000) (q : Fin 128) :
    k1_pay1 (F := Ideal) x0 b x2 (ix2 p q)
      = ∑ k : Fin 128, max ((x0 (ix2 p k) : EReal) + (b (ix2 (0 : Fin 1) k) : EReal)) (Ideal.ofBits .f32 0x00000000#32)
          * (x2 (ix2 k q) : EReal) := by
  unfold k1_pay1
  refine (truncf_apply _ bitsLt_bf16_f32 (ix2 p q)).trans ?_
  refine (Cert.DotSums.matmul_zero_ix2 (φ₁ := .bf16) (φ₂ := .bf16) dot_S5000x128_S128x128_S5000x128_1_0_0_1_n_n none
    rfl rfl rfl rfl rfl rfl rfl rfl _ (truncf .bf16 x2 bitsLt_bf16_f32) p q).trans ?_
  refine Finset.sum_congr rfl fun k _ => ?_
  refine congrArg (· * (x2 (ix2 k q) : EReal)) ?_
  show max ((shapeCast S5000x128 x0 shapeCasts_S5000x128_S5000x128 (ix2 p k) : EReal)
      + broadcastTo S5000x128 (shapeCast S1x128 b shapeCasts_S1x128_S1x128) broadcasts_S1x128_S5000x128 (ix2 p k)) _ = _
  rw [biasRows_apply, shapeCast_self]
  rfl

end Cert.Gcn

end
-- ==== Proof.Region0.lean ====
/-
  The first region: H1 = X · W1, ten blocks of 5000 rows.

  Point t of the grid fetches rows 5000 t … 5000 t + 4999 of the node features X (block index (t, 0) of a 5000×128
  tiling) and the whole weight matrix W1 (block index (0, 0)), and writes its tile back as rows 5000 t … 5000 t + 4999 of
  the output. Entry (p, q) of the tile is the sum over k of X (5000 t + p, k) * W1 (k, q), which is entry
  (5000 t + p, q) of the host's whole product X · W1: a row of a matrix product depends on that row of the left factor
  only. The ten blocks tile the 50000 rows (row r is in block r / 5000), so after the region the output array holds
  X · W1, whatever the region found in it.
-/
import proofs.«114557_j83494164234348_2_alg».proof.Proof.Gen.KernelIdeal.Frame
import proofs.«114557_j83494164234348_2_alg».proof.Proof.Gen.ReferenceIdeal.Read
import proofs.«114557_j83494164234348_2_alg».proof.Proof.Payloads

set_option maxRecDepth 16384

open scoped BigOperators

noncomputable section

namespace Cert.Gcn

open Idealize.ShloMosaic Idealize.ShloMosaic.TcCoe Idealize.ShloMosaic.ValueIdx Idealize.SL.Sem
open Idealize.ShloMosaic.Pipeline (Dat Cfg Window)
open Cert.KernelIdeal Cert.KernelIdeal.Gen

theorem hz : (![0, 0] : Fin 2 → Nat) = fun _ => 0 := funext fun a => by fin_cases a <;> rfl

/-- The host's whole product at (r, q): the plain sum along row r of the left factor and column q of the right. -/
theorem wholeProduct_apply (X : FVec Ideal ⟨2, ![50000, 128]⟩ .f32) (W : FVec Ideal ⟨2, ![128, 128]⟩ .f32)
    (r : Fin 50000) (q : Fin 128) :
    Cert.ReferenceIdeal.Read.val_main_v32 (F := Ideal) X W (ix2 r q)
      = ∑ k : Fin 128, (X (ix2 r k) : EReal) * (W (ix2 k q) : EReal) := by
  unfold Cert.ReferenceIdeal.Read.val_main_v32
  simp only [Host.dotGeneral]
  exact Cert.DotSums.dotGeneral_ix2 Cert.ReferenceIdeal.dot_S50000x128_S128x128_S50000x128_1_0_0_1_n_n none _
    rfl rfl rfl rfl rfl rfl rfl rfl X W r q

/-- One tile: if the loaded row block is rows 5000 T … of X and the loaded matrix is W, the stored tile's entry (p, q)
    is entry (5000 T + p, q) of X · W. -/
theorem tile0_entry (X : FVec Ideal ⟨2, ![50000, 128]⟩ .f32) (W : FVec Ideal ⟨2, ![128, 128]⟩ .f32)
    (x0 : Vec Ideal S5000x128 .f32) (x1 : Vec Ideal S128x128 .f32) (T : Nat) (hT : T < 10)
    (h0 : ∀ (p : Fin 5000) (k : Fin 128), x0 (ix2 p k) = X (ix2 ⟨T * 5000 + p.val, by omega⟩ k))
    (h1 : ∀ (k q : Fin 128), x1 (ix2 k q) = W (ix2 k q)) (p : Fin 5000) (q : Fin 128) :
    k0_pay1 (F := Ideal) x0 x1 (ix2 p q)
      = Cert.ReferenceIdeal.Read.val_main_v32 (F := Ideal) X W (ix2 ⟨T * 5000 + p.val, by omega⟩ q) := by
  rw [pay0_apply, wholeProduct_apply]
  exact Finset.sum_congr rfl fun k _ => by rw [h0 p k, h1 k q]

/-- The same for the whole tile at once, as a function of the tile's index. -/
theorem tile0_fn (X : FVec Ideal ⟨2, ![50000, 128]⟩ .f32) (W : FVec Ideal ⟨2, ![128, 128]⟩ .f32)
    (x0 : Vec Ideal S5000x128 .f32) (x1 : Vec Ideal S128x128 .f32) (T : Nat) (hT : T < 10)
    (h0 : ∀ (p : Fin 5000) (k : Fin 128), x0 (ix2 p k) = X (ix2 ⟨T * 5000 + p.val, by omega⟩ k))
    (h1 : ∀ (k q : Fin 128), x1 (ix2 k q) = W (ix2 k q)) :
    (k0_pay1 (F := Ideal) x0 x1 : S5000x128.Idx → EReal)
      = fun j => Cert.ReferenceIdeal.Read.val_main_v32 (F := Ideal) X W
          (ix2 ⟨T * 5000 + (j 0).val, by have h : (j 0).val < 5000 := (j 0).isLt; omega⟩ ⟨(j 1).val, (j 1).isLt⟩) :=
  funext fun j => by
    obtain ⟨p, q, rfl⟩ : ∃ (p : Fin 5000) (q : Fin 128), j = ix2 p q := ⟨j 0, j 1, eq_ix2 j⟩
    exact tile0_entry X W x0 x1 T hT h0 h1 p q

variable (V : (c : Dev nD) → (b : Ref sig .tc) → Buf (Elt Ideal) ((c : Thread nD τ).loc b))

/-- The printed index maps over the ten points: the row blocks move with the point, everything else stays at 0. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is block t of X · W1, X and W1 the arrays as the region finds them. -/
theorem flushed0 (c : Dev nD) (t : Fin cfg0.N) :
    (dat0 V c).flushed 2 t = ((cfg0.win 2).blk t).view.read (Elt Ideal)
      (Cert.ReferenceIdeal.Read.val_main_v32 (F := Ideal) (V c main_arg0) (V c main_arg3)) := by
  show (cfg0.win 2).cut (grid0.coords t) ((dat0 V c).after 2 t) = _
  rw [after0_2]
  unfold out0_2
  rw [View.canon_unit_zero hz]
  simp only [View.ld_unit_zero (S := S5000x128) hz, View.ld_unit_zero (S := S128x128) hz]
  obtain ⟨e0, e1, e2, e3, e4, e5⟩ := idx_facts0 t
  have ht : t.val < 10 := lt_of_lt_of_eq t.isLt N_0
  funext j
  show k0_pay1 (F := Ideal) (iblk0 V c 0 t) (iblk0 V c 1 t) j
    = Cert.ReferenceIdeal.Read.val_main_v32 (F := Ideal) (V c main_arg0) (V c main_arg3) (((cfg0.win 2).blk t).view.emb j)
  refine (congrFun (tile0_fn (V c main_arg0) (V c main_arg3) (iblk0 V c 0 t) (iblk0 V c 1 t) t.val ht ?_ ?_) j).trans ?_
  · intro p k
    show V c main_arg0 (((cfg0.win 0).blk t).view.emb (ix2 p k)) = V c main_arg0 _
    refine congrArg (V c main_arg0) (funext fun a => Fin.ext ?_)
    match a with
    | ⟨0, _⟩ => show win0_0.index t (0 : Fin 2) * 5000 + 1 * p.val = t.val * 5000 + p.val; omega
    | ⟨1, _⟩ => show win0_0.index t (1 : Fin 2) * 128 + 1 * k.val = k.val; omega
  · intro k q
    show V c main_arg3 (((cfg0.win 1).blk t).view.emb (ix2 k q)) = V c main_arg3 _
    refine congrArg (V c main_arg3) (funext fun a => Fin.ext ?_)
    match a with
    | ⟨0, _⟩ => show win0_1.index t (0 : Fin 2) * 128 + 1 * k.val = k.val; omega
    | ⟨1, _⟩ => show win0_1.index t (1 : Fin 2) * 128 + 1 * q.val = q.val; omega
  · refine congrArg (Cert.ReferenceIdeal.Read.val_main_v32 (F := Ideal) (V c main_arg0) (V c main_arg3)) (funext fun a => Fin.ext ?_)
    match a with
    | ⟨0, _⟩ => show t.val * 5000 + (j 0).val = win0_2.index t (0 : Fin 2) * 5000 + 1 * (j 0).val; omega
    | ⟨1, _⟩ => show (j 1).val = win0_2.index t (1 : Fin 2) * 128 + 1 * (j 1).val; omega

/-- An index of the output array is in point t's block iff each coordinate is in the block's range on its axis. -/
theorem mem_blk0 (t : Fin cfg0.N) (i : S50000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v32).slice (win0_2.rect t)).set ↔ _
  rw [View.set_slice_whole, Rect.mem_set_unit]
  exact Iff.rfl

/-- Row r lies in the block of point r / 5000: the ten blocks cover the array. -/
theorem cover0 (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  have hN : (i 0).val / 5000 < cfg0.N := by rw [show cfg0.N = 10 from N_0]; omega
  refine ⟨⟨(i 0).val / 5000, hN⟩, flush0_2 _, ?_⟩
  rw [mem_blk0]
  obtain ⟨-, -, -, -, e4, e5⟩ := idx_facts0 ⟨(i 0).val / 5000, hN⟩
  intro a
  match a with
  | ⟨0, _⟩ =>
    show win0_2.index ⟨(i 0).val / 5000, hN⟩ (0 : Fin 2) * 5000 ≤ (i 0).val ∧ (i 0).val < win0_2.index ⟨(i 0).val / 5000, hN⟩ (0 : Fin 2) * 5000 + 5000
    rw [e4]; show (i 0).val / 5000 * 5000 ≤ (i 0).val ∧ (i 0).val < (i 0).val / 5000 * 5000 + 5000; omega
  | ⟨1, _⟩ =>
    show win0_2.index ⟨(i 0).val / 5000, hN⟩ (1 : Fin 2) * 128 ≤ (i 1).val ∧ (i 1).val < win0_2.index ⟨(i 0).val / 5000, hN⟩ (1 : Fin 2) * 128 + 128
    rw [e5]; omega

/-- After the region the output array holds X · W1. -/
theorem final0 (c : Dev nD) :
    (dat0 V c).arrAt 2 cfg0.N = Cert.ReferenceIdeal.Read.val_main_v32 (F := Ideal) (V c main_arg0) (V c main_arg3) :=
  (dat0 V c).arrAt_eq_of_cover 2 _ (fun t _ => flushed0 V c t) cover0

end Cert.Gcn

end
-- ==== Proof.Region1.lean ====
/-
  The second region: H2 = max (A + b1, 0) · W2, ten blocks of 5000 rows.

  Point t fetches rows 5000 t … 5000 t + 4999 of the aggregated messages A, the bias laid out as one 1×128 row, and the
  whole weight matrix W2, and writes its tile back as the same rows of the output. Entry (p, q) of the tile is the sum
  over k of max (A (5000 t + p, k) + b (0, k)) 0 * W2 (k, q). The host's way of saying this — add the bias row
  repeated over all 50000 rows, take the maximum with the zero array, multiply by W2 — has the same sum at
  (5000 t + p, q): the bias and the rectifier act entry by entry, and a row of a product depends on that row of the
  left factor only. The ten blocks tile the rows, so the output array ends holding that function of A, b and W2.
-/
import proofs.«114557_j83494164234348_2_alg».proof.Proof.Gen.KernelIdeal.Frame
import proofs.«114557_j83494164234348_2_alg».proof.Proof.Gen.ReferenceIdeal.Read
import proofs.«114557_j83494164234348_2_alg».proof.Proof.Payloads

set_option maxRecDepth 16384

open scoped BigOperators

noncomputable section

namespace Cert.Gcn

open Idealize.ShloMosaic Idealize.ShloMosaic.TcCoe Idealize.ShloMosaic.ValueIdx Idealize.SL.Sem
open Idealize.ShloMosaic.Pipeline (Dat Cfg Window)
open Cert.KernelIdeal Cert.KernelIdeal.Gen

theorem hz1 : (![0, 0] : Fin 2 → Nat) = fun _ => 0 := funext fun a => by fin_cases a <;> rfl

/-- Bias, rectifier and product in the host's operations: the bias row repeated over the rows and added, the maximum
    with the zero array, the whole product with W. -/
def biasReluTimes (A : FVec Ideal ⟨2, ![50000, 128]⟩ .f32) (b : FVec Ideal ⟨2, ![1, 128]⟩ .f32)
    (W : FVec Ideal ⟨2, ![128, 128]⟩ .f32) : FVec Ideal ⟨2, ![50000, 128]⟩ .f32 :=
  Host.dotGeneral (F := Ideal) Cert.ReferenceIdeal.dot_S50000x128_S128x128_S50000x128_1_0_0_1_n_n none
    (maximumf (addf A (broadcastInDim Cert.ReferenceIdeal.S50000x128 ![0, 1] Cert.ReferenceIdeal.Facts₀.bcast_S1x128_S50000x128_0_1 b))
      (Cert.ReferenceIdeal.Read.val_main_call1_v0 (F := Ideal))) W

/-- It is the reference's second product, of the reference's own aggregation and bias row. -/
theorem biasReluTimes_ref (x0 : FVec Ideal ⟨2, ![50000, 128]⟩ .f32) (x1 : IVec ⟨2, ![2, 1600000]⟩ 32)
    (x2 : FVec Ideal ⟨1, ![1600000]⟩ .f32) (x3 : FVec Ideal ⟨2, ![128, 128]⟩ .f32) (x4 : FVec Ideal ⟨1, ![128]⟩ .f32)
    (x5 : FVec Ideal ⟨2, ![128, 128]⟩ .f32) :
    Cert.ReferenceIdeal.Read.val_main_v73 (F := Ideal) x0 x1 x2 x3 x4 x5
      = biasReluTimes (Cert.ReferenceIdeal.Read.val_main_v45 (F := Ideal) x0 x1 x2 x3)
          (Cert.ReferenceIdeal.Read.val_main_v46 (F := Ideal) x4) x5 := rfl

/-- At (r, q): the plain sum along row r of max (A + b, 0) and column q of W. -/
theorem biasReluTimes_apply (A : FVec Ideal ⟨2, ![50000, 128]⟩ .f32) (b : FVec Ideal ⟨2, ![1, 128]⟩ .f32)
    (W : FVec Ideal ⟨2, ![128, 128]⟩ .f32) (r : Fin 50000) (q : Fin 128) :
    biasReluTimes A b W (ix2 r q)
      = ∑ k : Fin 128, max ((A (ix2 r k) : EReal) + (b (ix2 (0 : Fin 1) k) : EReal)) (Ideal.ofBits .f32 0x00000000#32)
          * (W (ix2 k q) : EReal) := by
  unfold biasReluTimes
  simp only [Host.dotGeneral]
  refine (Cert.DotSums.dotGeneral_ix2 Cert.ReferenceIdeal.dot_S50000x128_S128x128_S50000x128_1_0_0_1_n_n none _
    rfl rfl rfl rfl rfl rfl rfl rfl _ W r q).trans ?_
  refine Finset.sum_congr rfl fun k _ => ?_
  refine congrArg (· * (W (ix2 k q) : EReal)) ?_
  show max ((A (ix2 r k) : EReal)
      + broadcastInDim Cert.ReferenceIdeal.S50000x128 ![0, 1] Cert.ReferenceIdeal.Facts₀.bcast_S1x128_S50000x128_0_1 b (ix2 r k))
      (Cert.ReferenceIdeal.Read.val_main_call1_v0 (F := Ideal) (ix2 r k)) = _
  rw [broadcastInDim_apply ![0, 1] Cert.ReferenceIdeal.Facts₀.bcast_S1x128_S50000x128_0_1 b (ix2 r k) (ix2 (0 : Fin 1) k) (fun a => by
    match a with
    | ⟨0, _⟩ => show 0 = if (1 : Nat) = 1 then 0 else _; rw [if_pos rfl]
    | ⟨1, _⟩ => show k.val = if (128 : Nat) = 1 then 0 else k.val; rw [if_neg (by decide)])]
  rfl

/-- One tile: if the loaded row block is rows 5000 T … of A, the loaded row is b and the loaded matrix is W, the
    stored tile's entry (p, q) is entry (5000 T + p, q) of max (A + b, 0) · W. -/
theorem tile1_entry (A : FVec Ideal ⟨2, ![50000, 128]⟩ .f32) (b : FVec Ideal ⟨2, ![1, 128]⟩ .f32)
    (W : FVec Ideal ⟨2, ![128, 128]⟩ .f32)
    (x0 : FVec Ideal S5000x128 .f32) (x1 : FVec Ideal S1x128 .f32) (x2 : FVec Ideal S128x128 .f32) (T : Nat) (hT : T < 10)
    (h0 : ∀ (p : Fin 5000) (k : Fin 128), x0 (ix2 p k) = A (ix2 ⟨T * 5000 + p.val, by omega⟩ k))
    (h1 : ∀ (k : Fin 128), x1 (ix2 (0 : Fin 1) k) = b (ix2 (0 : Fin 1) k))
    (h2 : ∀ (k q : Fin 128), x2 (ix2 k q) = W (ix2 k q)) (p : Fin 5000) (q : Fin 128) :
    k1_pay1 (F := Ideal) x0 x1 x2 (ix2 p q) = biasReluTimes A b W (ix2 ⟨T * 5000 + p.val, by omega⟩ q) := by
  rw [pay1_apply, biasReluTimes_apply]
  exact Finset.sum_congr rfl fun k _ => by rw [h0 p k, h1 k, h2 k q]

/-- The same for the whole tile at once, as a function of the tile's index. -/
theorem tile1_fn (A : FVec Ideal ⟨2, ![50000, 128]⟩ .f32) (b : FVec Ideal ⟨2, ![1, 128]⟩ .f32)
    (W : FVec Ideal ⟨2, ![128, 128]⟩ .f32)
    (x0 : FVec Ideal S5000x128 .f32) (x1 : FVec Ideal S1x128 .f32) (x2 : FVec Ideal S128x128 .f32) (T : Nat) (hT : T < 10)
    (h0 : ∀ (p : Fin 5000) (k : Fin 128), x0 (ix2 p k) = A (ix2 ⟨T * 5000 + p.val, by omega⟩ k))
    (h1 : ∀ (k : Fin 128), x1 (ix2 (0 : Fin 1) k) = b (ix2 (0 : Fin 1) k))
    (h2 : ∀ (k q : Fin 128), x2 (ix2 k q) = W (ix2 k q)) :
    (k1_pay1 (F := Ideal) x0 x1 x2 : S5000x128.Idx → EReal)
      = fun j => biasReluTimes A b W (ix2 ⟨T * 5000 + (j 0).val, by have h : (j 0).val < 5000 := (j 0).isLt; omega⟩ ⟨(j 1).val, (j 1).isLt⟩) :=
  funext fun j => by
    obtain ⟨p, q, rfl⟩ : ∃ (p : Fin 5000) (q : Fin 128), j = ix2 p q := ⟨j 0, j 1, eq_ix2 j⟩
    exact tile1_entry A b W x0 x1 x2 T hT h0 h1 h2 p q

variable (V : (c : Dev nD) → (b : Ref sig .tc) → Buf (Elt Ideal) ((c : Thread nD τ).loc b))

/-- The printed index maps over the ten points: the row blocks move with the point, everything else stays at 0. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- What point t writes back is block t of max (A + b, 0) · W2, the three arrays as the region finds them. -/
theorem flushed1 (c : Dev nD) (t : Fin cfg1.N) :
    (dat1 V c).flushed 3 t = ((cfg1.win 3).blk t).view.read (Elt Ideal)
      (biasReluTimes (V c main_v46) (V c main_v47) (V c main_arg5)) := by
  show (cfg1.win 3).cut (grid1.coords t) ((dat1 V c).after 3 t) = _
  rw [after1_3]
  unfold out1_3
  rw [View.canon_unit_zero hz1]
  simp only [View.ld_unit_zero (S := S5000x128) hz1, View.ld_unit_zero (S := S1x128) hz1, View.ld_unit_zero (S := S128x128) hz1]
  obtain ⟨e0, e1, e2, e3, e4, e5, e6, e7⟩ := idx_facts1 t
  have ht : t.val < 10 := lt_of_lt_of_eq t.isLt N_1
  funext j
  show k1_pay1 (F := Ideal) (iblk1 V c 0 t) (iblk1 V c 1 t) (iblk1 V c 2 t) j
    = biasReluTimes (V c main_v46) (V c main_v47) (V c main_arg5) (((cfg1.win 3).blk t).view.emb j)
  refine (congrFun (tile1_fn (V c main_v46) (V c main_v47) (V c main_arg5) (iblk1 V c 0 t) (iblk1 V c 1 t) (iblk1 V c 2 t)
    t.val ht ?_ ?_ ?_) j).trans ?_
  · intro p k
    show V c main_v46 (((cfg1.win 0).blk t).view.emb (ix2 p k)) = V c main_v46 _
    refine congrArg (V c main_v46) (funext fun a => Fin.ext ?_)
    match a with
    | ⟨0, _⟩ => show win1_0.index t (0 : Fin 2) * 5000 + 1 * p.val = t.val * 5000 + p.val; omega
    | ⟨1, _⟩ => show win1_0.index t (1 : Fin 2) * 128 + 1 * k.val = k.val; omega
  · intro k
    show V c main_v47 (((cfg1.win 1).blk t).view.emb (ix2 (0 : Fin 1) k)) = V c main_v47 _
    refine congrArg (V c main_v47) (funext fun a => Fin.ext ?_)
    match a with
    | ⟨0, _⟩ => show win1_1.index t (0 : Fin 2) * 1 + 1 * 0 = 0; omega
    | ⟨1, _⟩ => show win1_1.index t (1 : Fin 2) * 128 + 1 * k.val = k.val; omega
  · intro k q
    show V c main_arg5 (((cfg1.win 2).blk t).view.emb (ix2 k q)) = V c main_arg5 _
    refine congrArg (V c main_arg5) (funext fun a => Fin.ext ?_)
    match a with
    | ⟨0, _⟩ => show win1_2.index t (0 : Fin 2) * 128 + 1 * k.val = k.val; omega
    | ⟨1, _⟩ => show win1_2.index t (1 : Fin 2) * 128 + 1 * q.val = q.val; omega
  · refine congrArg (biasReluTimes (V c main_v46) (V c main_v47) (V c main_arg5)) (funext fun a => Fin.ext ?_)
    match a with
    | ⟨0, _⟩ => show t.val * 5000 + (j 0).val = win1_3.index t (0 : Fin 2) * 5000 + 1 * (j 0).val; omega
    | ⟨1, _⟩ => show (j 1).val = win1_3.index t (1 : Fin 2) * 128 + 1 * (j 1).val; omega

/-- An index of the output array is in point t's block iff each coordinate is in the block's range on its axis. -/
theorem mem_blk1 (t : Fin cfg1.N) (i : S50000x128.Idx) :
    i ∈ ((cfg1.win 3).blk t).view.set ↔ ∀ a : Fin 2, win1_3.index t a * S5000x128.size a ≤ (i a).val ∧ (i a).val < win1_3.index t a * S5000x128.size a + S5000x128.size a := by
  show i ∈ ((View.whole main_v48).slice (win1_3.rect t)).set ↔ _
  rw [View.set_slice_whole, Rect.mem_set_unit]
  exact Iff.rfl

/-- Row r lies in the block of point r / 5000: the ten blocks cover the array. -/
theorem cover1 (i : S50000x128.Idx) :
    ∃ t : Fin cfg1.N, (cfg1.win 3).flush t = true ∧ i ∈ ((cfg1.win 3).blk t).view.set := by
  have hi0 : (i 0).val < 50000 := (i 0).isLt
  have hi1 : (i 1).val < 128 := (i 1).isLt
  have hN : (i 0).val / 5000 < cfg1.N := by rw [show cfg1.N = 10 from N_1]; omega
  refine ⟨⟨(i 0).val / 5000, hN⟩, flush1_3 _, ?_⟩
  rw [mem_blk1]
  obtain ⟨-, -, -, -, -, -, e6, e7⟩ := idx_facts1 ⟨(i 0).val / 5000, hN⟩
  intro a
  match a with
  | ⟨0, _⟩ =>
    show win1_3.index ⟨(i 0).val / 5000, hN⟩ (0 : Fin 2) * 5000 ≤ (i 0).val ∧ (i 0).val < win1_3.index ⟨(i 0).val / 5000, hN⟩ (0 : Fin 2) * 5000 + 5000
    rw [e6]; show (i 0).val / 5000 * 5000 ≤ (i 0).val ∧ (i 0).val < (i 0).val / 5000 * 5000 + 5000; omega
  | ⟨1, _⟩ =>
    show win1_3.index ⟨(i 0).val / 5000, hN⟩ (1 : Fin 2) * 128 ≤ (i 1).val ∧ (i 1).val < win1_3.index ⟨(i 0).val / 5000, hN⟩ (1 : Fin 2) * 128 + 128
    rw [e7]; omega

/-- After the region the output array holds max (A + b, 0) · W2. -/
theorem final1 (c : Dev nD) :
    (dat1 V c).arrAt 3 cfg1.N = biasReluTimes (V c main_v46) (V c main_v47) (V c main_arg5) :=
  (dat1 V c).arrAt_eq_of_cover 3 _ (fun t _ => flushed1 V c t) cover1

end Cert.Gcn

end
-- ==== Proof.Stages.lean ====
/-
  The idealized kernel program's result, boundary by boundary.

  The buffer contents at the seven boundaries of @main are a fold from the launch memory. Walking it: the three stretches
  before the first region leave the edge lists, the normalisation and the untouched arguments; the first region leaves
  X · W1 in its output array and everything else as it was; the stretch between the regions leaves the first
  aggregation and the bias row; the second region leaves max (A1 + b1, 0) · W2; the last stretch leaves the second
  aggregation plus b2. At every step the array is the one the reference's corresponding stage computes from the
  same seven arguments, so the result buffer ends holding the reference's result.

  One layout fact is used on the way: the kernel program lays the bias out as a 1×128 row by a reshape, the reference
  by a broadcast along a new leading axis; both read entry k of the bias at (0, k).
-/
import proofs.«114557_j83494164234348_2_alg».proof.Proof.Gen.KernelIdeal.Frame
import proofs.«114557_j83494164234348_2_alg».proof.Proof.HostStages
import proofs.«114557_j83494164234348_2_alg».proof.Proof.Region0
import proofs.«114557_j83494164234348_2_alg».proof.Proof.Region1
import Idealize.ShloMosaic.Lib.ValueLayout

set_option maxRecDepth 16384

noncomputable section

namespace Cert.Gcn

open Idealize.ShloMosaic Idealize.ShloMosaic.TcCoe Idealize.ShloMosaic.ValueIdx Idealize.SL.Sem Idealize.ShloMosaic.StableHlo
open Cert.KernelIdeal Cert.KernelIdeal.Gen
open Cert.ReferenceIdeal.Read

/-- A vector reshaped to one row and the same vector broadcast along a new leading axis are the same 1×n array. -/
theorem biasRow_eq (b : FVec Ideal ⟨1, ![128]⟩ .f32) :
    shapeCast S1x128 b shapeCasts_S128_S1x128 = val_main_v46 (F := Ideal) b := by
  funext i
  obtain ⟨u, k, rfl⟩ : ∃ (u : Fin 1) (k : Fin 128), i = ix2 u k := ⟨i 0, i 1, eq_ix2 i⟩
  rw [val_main_v46_apply]
  refine (shapeCast_a_1a_apply b shapeCasts_S128_S1x128 u k).trans (congrArg b (funext fun a => ?_))
  match a with
  | ⟨0, _⟩ => rfl

variable (m : (ℓ : Loc nD τ sig) → Buf (Elt Ideal) ℓ) (ρ : Dev nD → PrngReg) (c : Dev nD)

/-! ## After the first stretch -/

theorem W1_row : W1 m ρ c (Proc.devRef .tc main_v5) = val_main_v3 (F := Ideal) (m ((c : Thread nD τ).loc main_arg1)) := s0_row (W0 m ρ c)
theorem W1_col : W1 m ρ c (Proc.devRef .tc main_v6) = val_main_v6 (F := Ideal) (m ((c : Thread nD τ).loc main_arg1)) := s0_col (W0 m ρ c)
theorem W1_wt : W1 m ρ c (Proc.devRef .tc main_v8) = val_main_v8 (F := Ideal) (m ((c : Thread nD τ).loc main_arg2)) := s0_wt (W0 m ρ c)
theorem W1_pos : W1 m ρ c (Proc.devRef .tc main_v13) = val_main_v13 (F := Ideal) (m ((c : Thread nD τ).loc main_arg1)) (m ((c : Thread nD τ).loc main_arg2)) := s0_pos (W0 m ρ c)
theorem W1_rsqrt : W1 m ρ c (Proc.devRef .tc main_v14) = val_main_v14 (F := Ideal) (m ((c : Thread nD τ).loc main_arg1)) (m ((c : Thread nD τ).loc main_arg2)) := s0_rsqrt (W0 m ρ c)
theorem W1_zero : W1 m ρ c (Proc.devRef .tc main_cst_2) = val_main_cst_2 (F := Ideal) := s0_zero (W0 m ρ c)

/-! ## After the second stretch -/

theorem W2_dis : W2 m ρ c (Proc.devRef .tc main_v15) = val_main_v15 (F := Ideal) (m ((c : Thread nD τ).loc main_arg1)) (m ((c : Thread nD τ).loc main_arg2)) :=
  s1_dis (W1 m ρ c) _ _ (W1_pos m ρ c) (W1_rsqrt m ρ c) (W1_zero m ρ c)
theorem W2_row : W2 m ρ c (Proc.devRef .tc main_v5) = val_main_v3 (F := Ideal) (m ((c : Thread nD τ).loc main_arg1)) :=
  (s1_keep_row (W1 m ρ c)).trans (W1_row m ρ c)
theorem W2_col : W2 m ρ c (Proc.devRef .tc main_v6) = val_main_v6 (F := Ideal) (m ((c : Thread nD τ).loc main_arg1)) :=
  (s1_keep_col (W1 m ρ c)).trans (W1_col m ρ c)
theorem W2_wt : W2 m ρ c (Proc.devRef .tc main_v8) = val_main_v8 (F := Ideal) (m ((c : Thread nD τ).loc main_arg2)) :=
  (s1_keep_wt (W1 m ρ c)).trans (W1_wt m ρ c)

/-! ## At the first region's entry -/

theorem W3_norm : W3 m ρ c (Proc.devRef .tc main_v31) = val_main_v31 (F := Ideal) (m ((c : Thread nD τ).loc main_arg1)) (m ((c : Thread nD τ).loc main_arg2)) :=
  s2_norm (W2 m ρ c) _ _ (W2_dis m ρ c) (W2_row m ρ c) (W2_col m ρ c) (W2_wt m ρ c)
theorem W3_row : W3 m ρ c (Proc.devRef .tc main_v5) = val_main_v3 (F := Ideal) (m ((c : Thread nD τ).loc main_arg1)) :=
  (s2_keep_row (W2 m ρ c)).trans (W2_row m ρ c)
theorem W3_col : W3 m ρ c (Proc.devRef .tc main_v6) = val_main_v6 (F := Ideal) (m ((c : Thread nD τ).loc main_arg1)) :=
  (s2_keep_col (W2 m ρ c)).trans (W2_col m ρ c)
theorem W3_arg0 : W3 m ρ c (Proc.devRef .tc main_arg0) = (m ((c : Thread nD τ).loc main_arg0)) := pre_keep_arg0 (W0 m ρ c)
theorem W3_arg3 : W3 m ρ c (Proc.devRef .tc main_arg3) = (m ((c : Thread nD τ).loc main_arg3)) := pre_keep_arg3 (W0 m ρ c)
theorem W3_arg4 : W3 m ρ c (Proc.devRef .tc main_arg4) = (m ((c : Thread nD τ).loc main_arg4)) := pre_keep_arg4 (W0 m ρ c)
theorem W3_arg5 : W3 m ρ c (Proc.devRef .tc main_arg5) = (m ((c : Thread nD τ).loc main_arg5)) := pre_keep_arg5 (W0 m ρ c)
theorem W3_arg6 : W3 m ρ c (Proc.devRef .tc main_arg6) = (m ((c : Thread nD τ).loc main_arg6)) := pre_keep_arg6 (W0 m ρ c)

/-! ## At the first region's exit -/

theorem W4_h1 : W4 m ρ c (Proc.devRef .tc main_v32) = val_main_v32 (F := Ideal) (m ((c : Thread nD τ).loc main_arg0)) (m ((c : Thread nD τ).loc main_arg3)) :=
  (W4_arr m ρ c 2).trans ((final0 (V3 m ρ) c).trans
    (congrArg₂ (val_main_v32 (F := Ideal)) (W3_arg0 m ρ c) (W3_arg3 m ρ c)))
theorem W4_row : W4 m ρ c (Proc.devRef .tc main_v5) = val_main_v3 (F := Ideal) (m ((c : Thread nD τ).loc main_arg1)) :=
  (W4_of_ne m ρ c main_v5 (by decide)).trans (W3_row m ρ c)
theorem W4_col : W4 m ρ c (Proc.devRef .tc main_v6) = val_main_v6 (F := Ideal) (m ((c : Thread nD τ).loc main_arg1)) :=
  (W4_of_ne m ρ c main_v6 (by decide)).trans (W3_col m ρ c)
theorem W4_norm : W4 m ρ c (Proc.devRef .tc main_v31) = val_main_v31 (F := Ideal) (m ((c : Thread nD τ).loc main_arg1)) (m ((c : Thread nD τ).loc main_arg2)) :=
  (W4_of_ne m ρ c main_v31 (by decide)).trans (W3_norm m ρ c)
theorem W4_arg4 : W4 m ρ c (Proc.devRef .tc main_arg4) = (m ((c : Thread nD τ).loc main_arg4)) :=
  (W4_of_ne m ρ c main_arg4 (by decide)).trans (W3_arg4 m ρ c)
theorem W4_arg5 : W4 m ρ c (Proc.devRef .tc main_arg5) = (m ((c : Thread nD τ).loc main_arg5)) :=
  (W4_of_ne m ρ c main_arg5 (by decide)).trans (W3_arg5 m ρ c)
theorem W4_arg6 : W4 m ρ c (Proc.devRef .tc main_arg6) = (m ((c : Thread nD τ).loc main_arg6)) :=
  (W4_of_ne m ρ c main_arg6 (by decide)).trans (W3_arg6 m ρ c)

/-! ## At the second region's entry -/

theorem W5_agg : W5 m ρ c (Proc.devRef .tc main_v46) = val_main_v45 (F := Ideal) (m ((c : Thread nD τ).loc main_arg0)) (m ((c : Thread nD τ).loc main_arg1)) (m ((c : Thread nD τ).loc main_arg2)) (m ((c : Thread nD τ).loc main_arg3)) :=
  s3_agg (W4 m ρ c) _ _ _ _ (W4_h1 m ρ c) (W4_row m ρ c) (W4_col m ρ c) (W4_norm m ρ c)
theorem W5_bias : W5 m ρ c (Proc.devRef .tc main_v47) = val_main_v46 (F := Ideal) (m ((c : Thread nD τ).loc main_arg4)) :=
  (s3_bias (W4 m ρ c)).trans ((congrArg (fun v => shapeCast S1x128 v shapeCasts_S128_S1x128) (W4_arg4 m ρ c)).trans
    (biasRow_eq _))
theorem W5_row : W5 m ρ c (Proc.devRef .tc main_v5) = val_main_v3 (F := Ideal) (m ((c : Thread nD τ).loc main_arg1)) :=
  (s3_keep_row (W4 m ρ c)).trans (W4_row m ρ c)
theorem W5_col : W5 m ρ c (Proc.devRef .tc main_v6) = val_main_v6 (F := Ideal) (m ((c : Thread nD τ).loc main_arg1)) :=
  (s3_keep_col (W4 m ρ c)).trans (W4_col m ρ c)
theorem W5_norm : W5 m ρ c (Proc.devRef .tc main_v31) = val_main_v31 (F := Ideal) (m ((c : Thread nD τ).loc main_arg1)) (m ((c : Thread nD τ).loc main_arg2)) :=
  (s3_keep_norm (W4 m ρ c)).trans (W4_norm m ρ c)
theorem W5_arg5 : W5 m ρ c (Proc.devRef .tc main_arg5) = (m ((c : Thread nD τ).loc main_arg5)) := (s3_keep_arg5 (W4 m ρ c)).trans (W4_arg5 m ρ c)
theorem W5_arg6 : W5 m ρ c (Proc.devRef .tc main_arg6) = (m ((c : Thread nD τ).loc main_arg6)) := (s3_keep_arg6 (W4 m ρ c)).trans (W4_arg6 m ρ c)

/-! ## At the second region's exit -/

theorem W6_h2 : W6 m ρ c (Proc.devRef .tc main_v48)
    = val_main_v73 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  (W6_arr m ρ c 3).trans ((final1 (V5 m ρ) c).trans (by
    rw [show V5 m ρ c main_v46 = _ from W5_agg m ρ c, show V5 m ρ c main_v47 = _ from W5_bias m ρ c,
      show V5 m ρ c main_arg5 = _ from W5_arg5 m ρ c]
    exact (biasReluTimes_ref _ _ _ _ _ _).symm))
theorem W6_row : W6 m ρ c (Proc.devRef .tc main_v5) = val_main_v3 (F := Ideal) (m ((c : Thread nD τ).loc main_arg1)) :=
  (W6_of_ne m ρ c main_v5 (by decide)).trans (W5_row m ρ c)
theorem W6_col : W6 m ρ c (Proc.devRef .tc main_v6) = val_main_v6 (F := Ideal) (m ((c : Thread nD τ).loc main_arg1)) :=
  (W6_of_ne m ρ c main_v6 (by decide)).trans (W5_col m ρ c)
theorem W6_norm : W6 m ρ c (Proc.devRef .tc main_v31) = val_main_v31 (F := Ideal) (m ((c : Thread nD τ).loc main_arg1)) (m ((c : Thread nD τ).loc main_arg2)) :=
  (W6_of_ne m ρ c main_v31 (by decide)).trans (W5_norm m ρ c)
theorem W6_arg6 : W6 m ρ c (Proc.devRef .tc main_arg6) = (m ((c : Thread nD τ).loc main_arg6)) :=
  (W6_of_ne m ρ c main_arg6 (by decide)).trans (W5_arg6 m ρ c)

/-! ## At the return -/

/-- The result buffer ends holding the reference's result of the same seven arguments. -/
theorem W7_out : W7 m ρ c (Proc.devRef .tc main_v65)
    = val_main_v89 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  s4_out (W6 m ρ c) _ _ _ _ _ _ _ (W6_h2 m ρ c) (W6_row m ρ c) (W6_col m ρ c) (W6_norm m ρ c) (W6_arg6 m ρ c)

end Cert.Gcn

end
-- ==== Proof.lean ====
/-
  A two-layer graph convolution: the kernel program against its jnp reference, over the extended reals.

  Both programs compute, from node features X, an edge list with weights, two weight matrices and two biases,
      out = Â · max (Â · (X · W1) + b1, 0) · W2 + b2,
  where Â · H stands for: gather the rows of H along the edges' sources, scale row e by
  norm e = dis (src e) * w e * dis (tgt e), and add the rows up at the edges' targets (self loops of weight 1 appended,
  dis the inverse square root of the weighted in-degree where that is positive and 0 elsewhere).

  The kernel program does the two matrix products in two grid regions of ten 5000-row blocks each — the second with
  the bias and the rectifier applied to its left operand inside the region — and everything else on the host, by the
  very operations the reference uses. At the exact values a rounding to bf16 is the identity and a product accumulated
  into a zero tile is the plain sum, so each region leaves in its output array what the reference's `dot_general`
  computes (a row of a product depends on that row of the left factor only, and the blocks tile the rows). The host
  stretches between are then the reference's own stages applied to equal arrays. No law of arithmetic beyond this
  re-reading of the same sums is used, and nothing needs the inputs to be finite.

  The three frame claims are the generated frame runs; the idealization rewrote nothing, so `preserves` asks nothing.
-/
import proofs.«114557_j83494164234348_2_alg».proof.Defs
import proofs.«114557_j83494164234348_2_alg».proof.Proof.Gen.Kernel
import proofs.«114557_j83494164234348_2_alg».proof.Proof.Gen.Kernel.Frame
import proofs.«114557_j83494164234348_2_alg».proof.Proof.Gen.KernelIdeal
import proofs.«114557_j83494164234348_2_alg».proof.Proof.Gen.KernelIdeal.Frame
import proofs.«114557_j83494164234348_2_alg».proof.Proof.Gen.ReferenceIdeal
import proofs.«114557_j83494164234348_2_alg».proof.Proof.Gen.ReferenceIdeal.Run
import proofs.«114557_j83494164234348_2_alg».proof.Proof.Gen.ReferenceIdeal.Read
import proofs.«114557_j83494164234348_2_alg».proof.Proof.Gen.Pre_finite_inputs
import proofs.«114557_j83494164234348_2_alg».proof.Proof.RunResult
import proofs.«114557_j83494164234348_2_alg».proof.Proof.Stages
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no region: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both programs end with the reference's result of the kernel program's seven arguments: the kernel program by the
    walk through its boundaries, the reference by its run read at arguments that agree. -/
theorem algebraic : Cert.algebraic_KernelIdeal_ReferenceIdeal := by
  intro m ρ m' ρ' _ hagree
  refine ⟨fun c => Cert.ReferenceIdeal.Read.val_main_v89 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)), ?_, ?_⟩
  · exact (θ_run Cert.KernelIdeal.defs _ _).mono
      (fun r h c => ⟨(h c).1.trans (Cert.Gcn.W7_out m ρ c), (h c).2⟩)
      (Cert.KernelIdeal.GcnRun.run_result (F := Ideal) m ρ)
  · refine (θ_run Cert.ReferenceIdeal.defs _ _).mono (fun _ h c => ⟨?_, (h c).2⟩)
      (Cert.ReferenceIdeal.Value.run (F := Ideal) m' ρ')
    rw [(h c).1, Cert.ReferenceIdeal.Read.val_main_v89_eq, (hagree c).1, (hagree c).2.1, (hagree c).2.2.1,
      (hagree c).2.2.2.1, (hagree c).2.2.2.2.1, (hagree c).2.2.2.2.2.1, (hagree c).2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
